-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.Spec.lean ====
/-
  The result of both programs as ONE function of the five argument arrays, over the extended reals.

  With x : [4, 2048, 4096], W : [4096, 4096], bias : [4096], A : [16, 4096], B : [4096, 16] and a scale t, write
  D(o, i) = Σ_r B(o, r) · A(r, i) for the low-rank product. The entry (b, s, o) of the result is

      G      =  (Σ_i x(b,s,i) · W(o,i)  +  bias(o))  +  (Σ_i x(b,s,i) · D(o,i)) · t          (two products, added)
      Gfold  =   Σ_i x(b,s,i) · (W(o,i) + t · D(o,i))  +  bias(o)                             (one product with the folded weight)

  The two agree when every entry and the scale are real numbers (fold_eq): then x·(w + t·d) = x·w + (x·d)·t term by
  term, the sum splits, and the bias moves across. On the extended reals at large this fails (a product with an infinity
  does not distribute over a sum of opposite infinities), which is why the statement asks for real entries.
-/
import Idealize.ShloMosaic.PureOps.Ideal
import Idealize.ShloMosaic.Lib.ValueIdx
import proofs.«122669_j13726715478236_2_alg».proof.Proof.LibRealSums

noncomputable section

open scoped BigOperators

namespace Cert.LoraSpec

open Idealize.ShloMosaic Idealize.ShloMosaic.ValueIdx Cert.RealSums

/-- The activations' shape [4, 2048, 4096] (also the result's). -/
abbrev SX : Shape := ⟨3, ![4, 2048, 4096]⟩
/-- The base weight's shape [4096, 4096], rows the output features. -/
abbrev SW : Shape := ⟨2, ![4096, 4096]⟩
/-- The bias' shape [4096]. -/
abbrev Sb : Shape := ⟨1, ![4096]⟩
/-- The low-rank factor A's shape [16, 4096]. -/
abbrev SA : Shape := ⟨2, ![16, 4096]⟩
/-- The low-rank factor B's shape [4096, 16]. -/
abbrev SB : Shape := ⟨2, ![4096, 16]⟩

/-- The low-rank product's entry (o, i): Σ_r B(o, r) · A(r, i). -/
def delta (A : SA.Idx → EReal) (B : SB.Idx → EReal) (o i : Fin 4096) : EReal :=
  ∑ r : Fin 16, B (ix2 o r) * A (ix2 r i)

/-- The folded weight's entry (o, i): W(o, i) + t · D(o, i). -/
def wfold (t : EReal) (W : SW.Idx → EReal) (A : SA.Idx → EReal) (B : SB.Idx → EReal) (o i : Fin 4096) : EReal :=
  W (ix2 o i) + t * delta A B o i

/-- Two products, added: the base product with its bias, plus the scaled product with the low-rank matrix. -/
def G (t : EReal) (x : SX.Idx → EReal) (W : SW.Idx → EReal) (bias : Sb.Idx → EReal) (A : SA.Idx → EReal)
    (B : SB.Idx → EReal) : SX.Idx → EReal := fun i =>
  ((∑ k : Fin 4096, x (ix3 (i 0) (i 1) k) * W (ix2 (i 2) k)) + bias (ix1 (i 2)))
    + (∑ k : Fin 4096, x (ix3 (i 0) (i 1) k) * delta A B (i 2) k) * t

/-- One product with the folded weight, then the bias. -/
def Gfold (t : EReal) (x : SX.Idx → EReal) (W : SW.Idx → EReal) (bias : Sb.Idx → EReal) (A : SA.Idx → EReal)
    (B : SB.Idx → EReal) : SX.Idx → EReal := fun i =>
  (∑ k : Fin 4096, x (ix3 (i 0) (i 1) k) * wfold t W A B (i 2) k) + bias (ix1 (i 2))

/-- THE LAW, over any finite index set and real numbers: Σ x·(w + t·d) + b = (Σ x·w + b) + (Σ x·d)·t. -/
theorem fold_real {ι : Type*} (s : Finset ι) (x w d : ι → ℝ) (t b : ℝ) :
    (∑ k ∈ s, x k * (w k + t * d k)) + b = ((∑ k ∈ s, x k * w k) + b) + (∑ k ∈ s, x k * d k) * t := by
  have h : ∀ k, x k * (w k + t * d k) = x k * w k + (x k * d k) * t := fun k => by ring
  simp only [h, Finset.sum_add_distrib, ← Finset.sum_mul]
  ring

end Cert.LoraSpec

end
-- ==== Proof.FoldLaw.lean ====
/-
  The specification's two arrangements agree on real entries.

  Fix an output position (b, s, o). When every entry of x, W, bias, A, B and the scale t is a real number, the low-rank
  entry D(o, i) = Σ_r B(o, r) · A(r, i) is a finite sum of products of reals, hence real. Every entry can then be
  replaced by the image of a real number, the image of a sum (product) is the sum (product) of the images, and both
  arrangements become the image of one real expression each; the two real expressions agree by the distributive law
  over the reals (fold_real): Σ x·(w + t·d) + b = (Σ x·w + b) + (Σ x·d)·t.

  The literal 2.0 in single precision (bit pattern 0x40000000: sign 0, biased exponent 128, mantissa 0) is the real
  number 2.
-/
import proofs.«122669_j13726715478236_2_alg».proof.Proof.Spec

noncomputable section

open scoped BigOperators

namespace Cert.LoraSpec

open Idealize.ShloMosaic Idealize.ShloMosaic.ValueIdx Cert.RealSums

/-- The low-rank product of real factors has real entries: a finite sum of products of reals. -/
theorem delta_isReal (A : SA.Idx → EReal) (B : SB.Idx → EReal) (hA : ∀ i, IsReal (A i)) (hB : ∀ i, IsReal (B i))
    (o k : Fin 4096) : IsReal (delta A B o k) :=
  isReal_sum _ _ fun _ _ => (hB _).mul (hA _)

/-- On real entries and a real scale, the product with the folded weight equals the two products added. -/
theorem fold_eq (t : EReal) (ht : IsReal t) (x : SX.Idx → EReal) (W : SW.Idx → EReal) (bias : Sb.Idx → EReal)
    (A : SA.Idx → EReal) (B : SB.Idx → EReal) (hx : ∀ i, IsReal (x i)) (hW : ∀ i, IsReal (W i)) (hb : ∀ i, IsReal (bias i))
    (hA : ∀ i, IsReal (A i)) (hB : ∀ i, IsReal (B i)) :
    Gfold t x W bias A B = G t x W bias A B := by
  funext i
  obtain ⟨tr, rfl⟩ := ht
  -- real witnesses for the row of x, the row of W, the row of D, and the bias entry
  choose xr hxr using fun k : Fin 4096 => hx (ix3 (i 0) (i 1) k)
  choose wr hwr using fun k : Fin 4096 => hW (ix2 (i 2) k)
  choose dr hdr using fun k : Fin 4096 => delta_isReal A B hA hB (i 2) k
  obtain ⟨b, hb'⟩ := hb (ix1 (i 2))
  -- each of the three sums is the image of the real sum
  have hF : (∑ k : Fin 4096, x (ix3 (i 0) (i 1) k) * wfold (tr : EReal) W A B (i 2) k)
      = ((∑ k : Fin 4096, xr k * (wr k + tr * dr k) : ℝ) : EReal) := by
    rw [← coe_sum]
    refine Finset.sum_congr rfl fun k _ => ?_
    show x (ix3 (i 0) (i 1) k) * (W (ix2 (i 2) k) + (tr : EReal) * delta A B (i 2) k) = _
    rw [hxr, hwr, hdr, EReal.coe_mul, EReal.coe_add, EReal.coe_mul]
  have hXW : (∑ k : Fin 4096, x (ix3 (i 0) (i 1) k) * W (ix2 (i 2) k))
      = ((∑ k : Fin 4096, xr k * wr k : ℝ) : EReal) := by
    rw [← coe_sum]
    exact Finset.sum_congr rfl fun k _ => by rw [hxr, hwr, EReal.coe_mul]
  have hXD : (∑ k : Fin 4096, x (ix3 (i 0) (i 1) k) * delta A B (i 2) k)
      = ((∑ k : Fin 4096, xr k * dr k : ℝ) : EReal) := by
    rw [← coe_sum]
    exact Finset.sum_congr rfl fun k _ => by rw [hxr, hdr, EReal.coe_mul]
  show (∑ k : Fin 4096, x (ix3 (i 0) (i 1) k) * wfold (tr : EReal) W A B (i 2) k) + bias (ix1 (i 2))
      = ((∑ k : Fin 4096, x (ix3 (i 0) (i 1) k) * W (ix2 (i 2) k)) + bias (ix1 (i 2)))
        + (∑ k : Fin 4096, x (ix3 (i 0) (i 1) k) * delta A B (i 2) k) * (tr : EReal)
  rw [hF, hXW, hXD, hb', ← EReal.coe_add, ← EReal.coe_add, ← EReal.coe_mul, ← EReal.coe_add]
  exact congrArg _ (fold_real Finset.univ xr wr dr tr b)

/-- The single-precision literal 2.0 is the real number 2. -/
theorem two_isReal : IsReal (Ideal.ofBits .f32 0x40000000#32) :=
  ⟨2, by simp [Ideal.ofBits, Ideal.ieee, -EReal.coe_mul]; norm_num⟩

end Cert.LoraSpec

end
-- ==== Proof.Finite.lean ====
/-
  Finite inputs are real numbers.

  The precondition asks, for each of the five argument arrays, that |x| < +∞ holds at every entry (an "all" over the
  whole array), and takes the conjunction of the five answers. Over the extended reals |x| is max x (−x), and the
  pattern 0x7F800000 denotes ⊤. An extended real with max x (−x) < ⊤ is neither ⊤ (then max is ⊤) nor ⊥ (then −x is ⊤),
  so it is the image of a real number. Hence: if the precondition evaluates to "true", every entry of every argument is
  a real number.
-/
import proofs.«122669_j13726715478236_2_alg».proof.Pre_finite_inputs
import proofs.«122669_j13726715478236_2_alg».proof.Proof.Gen.Pre_finite_inputs
import proofs.«122669_j13726715478236_2_alg».proof.Proof.LibRealSums
import Idealize.ShloMosaic.Lib.ReduceAll
import Idealize.ShloMosaic.Lib.ValueIdx

noncomputable section

namespace Cert.LoraFinite

open Idealize.ShloMosaic Cert.Pre_finite_inputs Cert.RealSums

/-- The rank-0 shape has exactly one index. -/
instance : Subsingleton S_.Idx := ⟨fun a b => funext fun d => d.elim0⟩

/-- An extended real whose absolute value max x (−x) lies below ⊤ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- ONE ENTRY. Where the comparison |v| < +∞ (the constant 0x7F800000 broadcast to v's shape) answers "true" at an
    index, the entry of v there is a real number. -/
theorem isReal_of_cmp {s : Shape} (hb : S_.BroadcastsInDim s (![] : Fin 0 → Fin s.rank)) (v : FVec Ideal s .f32)
    (i : s.Idx)
    (h : cmpf .olt (Host.absf v) (broadcastInDim s ![] hb (constant (F := Ideal) S_ .f32 0x7F800000#32)) i = 1#1) :
    IsReal (v i) := by
  have h' : BitVec.ofBool (decide (max (v i) (-(v i)) < Ideal.ofBits .f32 0x7F800000#32)) = 1#1 := h
  have htop : Ideal.ofBits .f32 0x7F800000#32 = (⊤ : EReal) := by simp [Ideal.ofBits, Ideal.ieee]
  rw [htop] at h'
  refine isReal_of_abs_lt_top (v i) ?_
  by_contra hn
  rw [decide_eq_false hn] at h'
  exact absurd h' (by decide)

/-- THE PRECONDITION READ BACK. The five "all entries satisfy |x| < +∞" answers are and-ed into one bit; that bit being
    "true" makes each of the five true, each "all" gives the comparison at every index, and the comparison at an index
    makes the entry there a real number. -/
theorem real_of_pre (x0 : FVec Ideal S4x2048x4096 .f32) (x1 : FVec Ideal S4096x4096 .f32) (x2 : FVec Ideal S4096 .f32)
    (x3 : FVec Ideal S16x4096 .f32) (x4 : FVec Ideal S4096x16 .f32)
    (h : Cert.Pre_finite_inputs.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h0 := congrFun h ValueIdx.ix0
  dsimp only [fn, fn_part1, Idealize.ShloMosaic.andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => isReal_of_cmp _ x0 i (Host.reduce_andi_all _ _ _ _ _ e0 i),
    fun i => isReal_of_cmp _ x1 i (Host.reduce_andi_all _ _ _ _ _ e1 i),
    fun i => isReal_of_cmp _ x2 i (Host.reduce_andi_all _ _ _ _ _ e2 i),
    fun i => isReal_of_cmp _ x3 i (Host.reduce_andi_all _ _ _ _ _ e3 i),
    fun i => isReal_of_cmp _ x4 i (Host.reduce_andi_all _ _ _ _ _ e4 i)⟩

end Cert.LoraFinite

end
-- ==== Proof.RefIsSpec.lean ====
/-
  The reference program's result, read at an index, is the two-product form G of the specification.

  The reference computes, entry by entry,
      (Σ_k x(b,s,k) · W(o,k)  +  bias(o))  +  (Σ_k x(b,s,k) · (Σ_r B(o,r) · A(r,k))) · t
  with t the scale constant (kept as the same word on both sides, never evaluated). Each operation's element is
  read from its operands' elements; what remains is to see that the index functions the contractions and the
  broadcasts use are the coordinate constructors ix1 / ix2 / ix3 the specification is written with. The
  arrangement of sums and products is already the specification's, so no algebra is used.
-/
import proofs.«122669_j13726715478236_2_alg».proof.Proof.Gen.ReferenceIdeal.Read
import proofs.«122669_j13726715478236_2_alg».proof.Proof.Spec

noncomputable section

open scoped BigOperators

namespace Cert.LoraRef

open Idealize.ShloMosaic Idealize.ShloMosaic.ValueIdx Cert.ReferenceIdeal Cert.ReferenceIdeal.Read Cert.LoraSpec

/-- The base product reads the activations at (b, s, k). -/
theorem lidx0_eq (i : S4x2048x4096.Idx) (k : Fin 4096) : lidx_main_v0 i k = ix3 (i 0) (i 1) k :=
  funext fun a => Fin.ext (by match a with | ⟨0, _⟩ => rfl | ⟨1, _⟩ => rfl | ⟨2, _⟩ => rfl)

/-- The base product reads the weight at (o, k). -/
theorem ridx0_eq (i : S4x2048x4096.Idx) (k : Fin 4096) : ridx_main_v0 i k = ix2 (i 2) k :=
  funext fun a => Fin.ext (by match a with | ⟨0, _⟩ => rfl | ⟨1, _⟩ => rfl)

/-- The two broadcasts of the bias read it at (o). -/
theorem idx12_eq (i : S4x2048x4096.Idx) : idx_main_v1 (idx_main_v2 i) = ix1 (i 2) :=
  funext fun a => Fin.ext (by match a with | ⟨0, _⟩ => rfl)

/-- The low-rank product reads B at (o, r). -/
theorem lidx4_eq (j : S4096x4096.Idx) (r : Fin 16) : lidx_main_v4 j r = ix2 (j 0) r :=
  funext fun a => Fin.ext (by match a with | ⟨0, _⟩ => rfl | ⟨1, _⟩ => rfl)

/-- The low-rank product reads A at (r, i). -/
theorem ridx4_eq (j : S4096x4096.Idx) (r : Fin 16) : ridx_main_v4 j r = ix2 r (j 1) :=
  funext fun a => Fin.ext (by match a with | ⟨0, _⟩ => rfl | ⟨1, _⟩ => rfl)

/-- The second product reads the activations at (b, s, k). -/
theorem lidx5_eq (i : S4x2048x4096.Idx) (k : Fin 4096) : lidx_main_v5 i k = ix3 (i 0) (i 1) k :=
  funext fun a => Fin.ext (by match a with | ⟨0, _⟩ => rfl | ⟨1, _⟩ => rfl | ⟨2, _⟩ => rfl)

/-- The second product reads the low-rank matrix at row o … -/
theorem ridx5_0 (i : S4x2048x4096.Idx) (k : Fin 4096) : (ridx_main_v5 i k) 0 = i 2 := Fin.ext rfl

/-- … and column k. -/
theorem ridx5_1 (i : S4x2048x4096.Idx) (k : Fin 4096) : (ridx_main_v5 i k) 1 = k := Fin.ext rfl

/-- The low-rank product's entry, as the reference computes it, is the specification's delta. -/
theorem v4_eq_delta (x3 : (⟨S16x4096, .f32⟩ : BufTy).Contents (Elt Ideal))
    (x4 : (⟨S4096x16, .f32⟩ : BufTy).Contents (Elt Ideal)) (i : S4x2048x4096.Idx) (k : Fin 4096) :
    val_main_v4 (F := Ideal) x3 x4 (ridx_main_v5 i k) = delta x3 x4 (i 2) k := by
  rw [val_main_v4_apply]
  simp only [lidx4_eq, ridx4_eq, ridx5_0, ridx5_1, delta]
  rfl

/-- The reference's result is G with the scale constant. -/
theorem ref_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = G (Ideal.ofBits .f32 0x40000000#32) x0 x1 x2 x3 x4 := by
  funext i
  rw [val_main_v8_apply, val_main_v3_apply, val_main_v7_apply, val_main_v0_apply, val_main_v2_apply,
    val_main_v1_apply, val_main_v5_apply, val_main_v6_apply, val_main_cst_apply]
  simp only [v4_eq_delta, lidx0_eq, ridx0_eq, idx12_eq, lidx5_eq, G, Ideal.addf_def, Ideal.mulf_def, Ideal.ofBits_def]
  rfl

end Cert.LoraRef

end
-- ==== Proof.Pieces.lean ====
/-
  What one run of the kernel body leaves behind, as values.

  The body keeps a [1024, 2048] accumulator in scratch memory across the grid's third axis (the contraction tiles):
    at the first tile it stores zeros, reads them back, and stores  zeros + a·bᵀ ;
    at a middle tile it stores  acc + a·bᵀ  over the accumulator acc the tile before left;
    at the last tile it does the same and then stores  (acc + a·bᵀ) + bias  into the output block.
  Here a is the [1024, 512] block of activations, b the [2048, 512] block of the folded weight and bias the
  [1, 2048] block of the bias at the grid point. Each store covers its whole buffer, so what a buffer holds afterwards
  is the last store's value, and a load of a buffer just stored reads that value back.

  The three values are named once: zeroAcc, stepAcc (one accumulation step) and withBias (the output's store).
-/
import proofs.«122669_j13726715478236_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.LoraKernel

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- The accumulator's initial contents: zeros. -/
abbrev zeroAcc : Vec F S1024x2048 .f32 := k0_pay1 (F := F)

/-- One accumulation step: the accumulator plus the product of the activation block with the weight block. -/
abbrev stepAcc (a : Vec F S1024x512 .f32) (acc : Vec F S1024x2048 .f32) (b : Vec F S2048x512 .bf16) : Vec F S1024x2048 .f32 :=
  k0_pay2 a acc b

/-- The output's store: the finished accumulator plus the bias row, repeated down the rows. -/
abbrev withBias (acc : Vec F S1024x2048 .f32) (bias : Vec F S1x2048 .f32) : Vec F S1024x2048 .f32 :=
  k0_pay3 acc bias

/-- FIRST TILE: the accumulator ends at one step over zeros. -/
theorem scratch_first (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .f32) (x1 : Vec F S2048x512 .bf16) (x2 : Vec F S1x2048 .f32) :
    sout0_A_0 c i arg3 harg3 arg4 harg4 arg5 harg5 arg6 harg6 arg7 harg7 hc0 hc1 x0 x1 x2 = stepAcc x0 zeroAcc x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) origin, View.readCov_unit_zero (S := S1024x2048) _ origin]
  simp only [View.readAt_eq_ld, harg3.read_unread, harg4.read_unread, View.ld_unit_zero (S := S1024x512) origin,
    View.ld_unit_zero (S := S2048x512) origin]

/-- MIDDLE TILE: the accumulator ends at one step over what the tile before left. -/
theorem scratch_middle (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .f32) (x1 : Vec F S2048x512 .bf16) (x2 : Vec F S1x2048 .f32) (xs0 : Vec F S1024x2048 .f32) :
    sout0_B_0 c i arg3 harg3 arg4 harg4 arg5 harg5 arg6 harg6 arg7 harg7 hc0 hc1 x0 x1 x2 xs0 = stepAcc x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero origin]
  simp only [View.readAt_eq_ld, harg3.read_unread, harg4.read_unread, harg7.read_unread, View.ld_unit_zero (S := S1024x512) origin,
    View.ld_unit_zero (S := S2048x512) origin, View.ld_unit_zero (S := S1024x2048) origin]

/-- LAST TILE, the accumulator: one step over what the tile before left. -/
theorem scratch_last (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .f32) (x1 : Vec F S2048x512 .bf16) (x2 : Vec F S1x2048 .f32) (xs0 : Vec F S1024x2048 .f32) :
    sout0_C_0 c i arg3 harg3 arg4 harg4 arg5 harg5 arg6 harg6 arg7 harg7 hc0 hc1 x0 x1 x2 xs0 = stepAcc x0 xs0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread, View.ld_unit_zero (S := S1024x512) origin,
    View.ld_unit_zero (S := S2048x512) origin, View.ld_unit_zero (S := S1024x2048) origin]

/-- LAST TILE, the output block: the finished accumulator, read back, plus the bias row. -/
theorem output_last (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .f32) (x1 : Vec F S2048x512 .bf16) (x2 : Vec F S1x2048 .f32) (xs0 : Vec F S1024x2048 .f32) :
    out0_C_3 c i arg3 harg3 arg4 harg4 arg5 harg5 arg6 harg6 arg7 harg7 hc0 hc1 x0 x1 x2 xs0 = withBias (stepAcc x0 xs0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x2048) _ origin]
  simp only [View.readAt_eq_ld, harg3.read_unread, harg4.read_unread, harg5.read_unread, harg7.read_unread,
    View.ld_unit_zero (S := S1024x512) origin, View.ld_unit_zero (S := S2048x512) origin,
    View.ld_unit_zero (S := S1024x2048) origin, View.ld_unit_zero (S := S1x2048) origin]

end Cert.LoraKernel

end
-- ==== Proof.LibRowDot.lean ====
/-
  A matrix product with BOTH operands contracted along their second axis, [M, K] × [N, K] → [M, N], read at an index
  over the extended reals.

  This is a product against a transposed right operand that is never transposed in memory: with the contraction on
  axis 1 of the left operand and axis 1 of the right operand and no batch axis, the entry (p, q) of the product is the
  sum over k of lhs (p, k) · rhs (q, k) — the inner product of row p of the left operand with row q of the right one.
  It holds for a matrix unit's product into a zero accumulator (matmul_zero_apply), into any accumulator
  (matmul_acc_apply), and for the host's dot_general (dotGeneral_apply), whatever precision or schedule key they
  carry. All three follow from re-indexing the sum over the one-axis contraction shape by its coordinate (contr_sum).
-/
import Idealize.ShloMosaic.PureOps.Ideal.Laws
import Idealize.ShloMosaic.Lib.ValueIdx

noncomputable section

open scoped BigOperators

namespace Cert.RowDot

open Idealize.ShloMosaic Idealize.ShloMosaic.ValueIdx

variable {M K N : Nat}

/-- The dimension numbers of the row-by-row product. -/
abbrev rowDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowDims M K N wf).contr.Idx) :
    ((rowDims M K N wf).lhsIdx j r 0).val = (j 0).val := by
  unfold DotDims.lhsIdx
  rw [dif_neg (show ¬ (0 : Fin 2) ∈ (rowDims M K N wf).lhsBatch from List.not_mem_nil),
    dif_pos (show (0 : Fin 2) ∈ (rowDims M K N wf).lhsNonContracting from List.mem_singleton.mpr rfl)]
  rfl

/-- The right operand's ROW coordinate is the result's column, whatever the contraction index. -/
theorem rhs_row (j : (⟨2, ![M, N]⟩ : Shape).Idx) (r : (rowDims M K N wf).contr.Idx) :
    ((rowDims M K N wf).rhsIdx j r 0).val = (j 1).val := by
  unfold DotDims.rhsIdx
  rw [dif_neg (show ¬ (0 : Fin 2) ∈ (rowDims M K N wf).rhsBatch from List.not_mem_nil),
    dif_pos (show (0 : Fin 2) ∈ (rowDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowDims M K N wf).contr.Idx, lhs ((rowDims M K N wf).lhsIdx (ix2 p q) k) * rhs ((rowDims M K N wf).rhsIdx (ix2 p q) k)
      = ∑ k : Fin K, lhs (ix2 p k) * rhs (ix2 q k) := by
  rw [← Equiv.sum_comp (contrEquiv1 (rowDims M K N wf) K rfl rfl).symm]
  refine Finset.sum_congr rfl fun k _ => ?_
  have hk := contrEquiv1_symm_val (rowDims M K N wf) K rfl rfl k
  have el : (rowDims M K N wf).lhsIdx (ix2 p q) ((contrEquiv1 (rowDims M K N wf) K rfl rfl).symm k) = ix2 p k :=
    funext fun a => Fin.ext (by
      match a with
      | ⟨0, _⟩ => exact lhs_row wf _ _
      | ⟨1, _⟩ => exact ((rowDims M K N wf).lhsIdx_val_of_single rfl _ _).trans hk)
  have er : (rowDims M K N wf).rhsIdx (ix2 p q) ((contrEquiv1 (rowDims M K N wf) K rfl rfl).symm k) = ix2 q k :=
    funext fun a => Fin.ext (by
      match a with
      | ⟨0, _⟩ => exact rhs_row wf _ _
      | ⟨1, _⟩ => exact ((rowDims M K N wf).rhsIdx_val_of_single rfl _ _).trans hk)
  rw [el, er]

/-- A MATRIX UNIT'S PRODUCT INTO ANY ACCUMULATOR, read at (p, q), for ANY dimension numbers of the row-by-row form. -/
theorem matmul_acc_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂)
    (acc : FVec Ideal ⟨2, ![M, N]⟩ .f32) (p : Fin M) (q : Fin N) :
    FloatOps.matmul d prec lhs rhs acc (ix2 p q) = acc (ix2 p q) + ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_apply]
  exact congrArg (acc (ix2 p q) + ·) (contr_sum wf lhs rhs p q)

/-- The same INTO A ZERO ACCUMULATOR: just the sum. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the row-by-row form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.RowDot

end
-- ==== Proof.Payload.lean ====
/-
  The body's three values read at one entry, over the extended reals.

  At the ideal instance a change of float format is the identity, the matrix unit's product is the exact sum of
  products, and an addition is the extended reals' addition. So at entry (p, q) of the [1024, 2048] block:
    zeroAcc            is 0,
    stepAcc a acc b    is acc(p, q) + Σ_{k < 512} a(p, k) · b(q, k)   (row p of a against row q of b),
    withBias acc bias  is acc(p, q) + bias(0, q).
-/
import proofs.«122669_j13726715478236_2_alg».proof.Proof.Pieces
import proofs.«122669_j13726715478236_2_alg».proof.Proof.LibRowDot
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem

namespace Cert.LoraKernel

open Cert.KernelIdeal Cert.KernelIdeal.Gen

/-- The initial accumulator is zero everywhere. -/
theorem zeroAcc_apply (p : Fin 1024) (q : Fin 2048) : (zeroAcc (F := Ideal)) (ix2 p q) = 0 := by
  unfold zeroAcc k0_pay1
  simp only [shapeCast_self]
  exact Ideal.ofBits_zero_f32

/-- One accumulation step adds, at (p, q), the inner product of row p of the activation block with row q of the
    weight block. -/
theorem stepAcc_apply (a : Vec Ideal S1024x512 .f32) (acc : Vec Ideal S1024x2048 .f32) (b : Vec Ideal S2048x512 .bf16)
    (p : Fin 1024) (q : Fin 2048) :
    stepAcc (F := Ideal) a acc b (ix2 p q) = acc (ix2 p q) + ∑ k : Fin 512, a (ix2 p k) * b (ix2 q k) := by
  unfold stepAcc k0_pay2
  simp only [shapeCast_self]
  refine congrArg (acc (ix2 p q) + ·) ?_
  exact Cert.RowDot.matmul_zero_apply (M := 1024) (K := 512) (N := 2048) dot_S1024x512_S2048x512_S1024x2048_1_1_0_0_n_n
    rfl rfl rfl rfl rfl rfl none (truncf .bf16 a bitsLt_bf16_f32) b p q

/-- The output's store adds, at (p, q), the bias entry of column q. -/
theorem withBias_apply (acc : Vec Ideal S1024x2048 .f32) (bias : Vec Ideal S1x2048 .f32) (p : Fin 1024) (q : Fin 2048) :
    withBias (F := Ideal) acc bias (ix2 p q) = acc (ix2 p q) + bias (ix2 (0 : Fin 1) q) := by
  unfold withBias k0_pay3
  simp only [shapeCast_self]
  refine congrArg (acc (ix2 p q) + ·) ?_
  exact broadcastTo_apply bias broadcasts_S1x2048_S1024x2048 (ix2 p q) (ix2 (0 : Fin 1) q) (fun a => match a with
    | ⟨0, _⟩ => by show (0 : Nat) = if (1 : Nat) = 1 then 0 else p.val; rw [if_pos rfl]
    | ⟨1, _⟩ => by show q.val = if (2048 : Nat) = 1 then 0 else q.val; rw [if_neg (by decide)])

end Cert.LoraKernel

end
-- ==== Proof.Blocks.lean ====
/-
  The blocks the body is handed at a grid point, read against the whole arrays.

  The grid has 8 × 2 × 8 = 128 points; point t has coordinates (t / 16, t / 8 % 2, t % 8): a row block of 1024
  activations rows, a column block of 2048 output features, and a contraction tile of 512. At point t
    the activation block's entry (p, k) is   x'(1024 · (t / 16) + p,  512 · (t % 8) + k),
    the weight block's entry (q, k) is        W'(2048 · (t / 8 % 2) + q,  512 · (t % 8) + k),
    the bias block's entry (0, q) is          b'(0,  2048 · (t / 8 % 2) + q),
  where x' : [8192, 4096], W' : [4096, 4096] and b' : [1, 4096] are the three arrays the region finds. A block's
  coordinate is always (block index) × (block size) + (coordinate inside the block), and the block indices are the
  grid coordinates the window's index map selects, decided once over the 128 points.

  The arrays are read at natural-number coordinates (zero outside the array), so that statements about neighbouring
  grid points are arithmetic on naturals.
-/
import proofs.«122669_j13726715478236_2_alg».proof.Proof.Gen.KernelIdeal.Frame
import Idealize.ShloMosaic.Lib.ValueIdx
import Idealize.ShloMosaic.Lib.Pipeline.Value

set_option maxRecDepth 16384

noncomputable section

open scoped BigOperators
open Idealize.ShloMosaic Idealize.ShloMosaic.TcCoe Idealize.ShloMosaic.ValueIdx Idealize.SL.Sem

namespace Cert.LoraKernel

open Cert.KernelIdeal Cert.KernelIdeal.Gen

variable (m : (ℓ : Loc nD τ sig) → Buf (Elt Ideal) ℓ) (c : Dev nD)

/-- A grid point's number is below 128. -/
theorem point_lt (t : Fin cfg0.N) : t.val < 128 := lt_of_lt_of_eq t.isLt (show cfg0.N = 128 from N_0)

/-- The windows' block indices at point t are its grid coordinates: the activations move with (row block, tile), the
    weight with (column block, tile), the bias with the column block, the output with (row block, column block). -/
theorem block_indices : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- The activations the region finds, at natural coordinates. -/
def actAt (a n : ℕ) : EReal :=
  if h : a < 8192 ∧ n < 4096 then (V m c main_v5 : S8192x4096.Idx → EReal) (ix2 ⟨a, h.1⟩ ⟨n, h.2⟩) else 0

/-- The folded weight the region finds, at natural coordinates. -/
def weightAt (o n : ℕ) : EReal :=
  if h : o < 4096 ∧ n < 4096 then (V m c main_v4 : S4096x4096.Idx → EReal) (ix2 ⟨o, h.1⟩ ⟨n, h.2⟩) else 0

/-- The bias row the region finds, at a natural coordinate. -/
def biasAt (o : ℕ) : EReal :=
  if h : o < 4096 then (V m c main_v6 : S1x4096.Idx → EReal) (ix2 (0 : Fin 1) ⟨o, h⟩) else 0

/-- The activation block at point t. -/
theorem actBlock_apply (t : Fin cfg0.N) (p : Fin 1024) (k : Fin 512) :
    (iblk m c 0 t : Vec Ideal S1024x512 .f32) (ix2 p k) = actAt m c (1024 * (t.val / 16) + p.val) (512 * (t.val % 8) + k.val) := by
  have hN := point_lt t
  have hp := p.isLt
  have hk := k.isLt
  obtain ⟨e0, e1, -⟩ := block_indices t
  unfold actAt
  rw [dif_pos ⟨by omega, by omega⟩]
  unfold iblk
  rw [View.read_apply]
  show V m c main_v5 _ = V m c main_v5 _
  refine congrArg _ (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 512 + 1 * k.val = 512 * (t.val % 8) + k.val; rw [e1]; omega

/-- The weight block at point t. -/
theorem weightBlock_apply (t : Fin cfg0.N) (q : Fin 2048) (k : Fin 512) :
    (iblk m c 1 t : Vec Ideal S2048x512 .bf16) (ix2 q k) = weightAt m c (2048 * (t.val / 8 % 2) + q.val) (512 * (t.val % 8) + k.val) := by
  have hN := point_lt t
  have hq := q.isLt
  have hk := k.isLt
  obtain ⟨-, -, e0, e1, -⟩ := block_indices t
  unfold weightAt
  rw [dif_pos ⟨by omega, by omega⟩]
  unfold iblk
  rw [View.read_apply]
  show V m c main_v4 _ = V m c main_v4 _
  refine congrArg _ (funext fun a => Fin.ext ?_)
  match a with
  | ⟨0, _⟩ => show win0_1.index t (0 : Fin 2) * 2048 + 1 * q.val = 2048 * (t.val / 8 % 2) + q.val; rw [e0]; omega
  | ⟨1, _⟩ => show win0_1.index t (1 : Fin 2) * 512 + 1 * k.val = 512 * (t.val % 8) + k.val; rw [e1]; omega

/-- The bias block at point t. -/
theorem biasBlock_apply (t : Fin cfg0.N) (q : Fin 2048) :
    (iblk m c 2 t : Vec Ideal S1x2048 .f32) (ix2 (0 : Fin 1) q) = biasAt m c (2048 * (t.val / 8 % 2) + q.val) := by
  have hN := point_lt t
  have hq := q.isLt
  obtain ⟨-, -, -, -, e0, e1, -⟩ := block_indices t
  unfold biasAt
  rw [dif_pos (by omega)]
  unfold iblk
  rw [View.read_apply]
  show V m c main_v6 _ = V m c main_v6 _
  refine congrArg _ (funext fun a => Fin.ext ?_)
  match a with
  | ⟨0, _⟩ => show win0_2.index t (0 : Fin 2) * 1 + 1 * 0 = 0; rw [e0]
  | ⟨1, _⟩ => show win0_2.index t (1 : Fin 2) * 2048 + 1 * q.val = 2048 * (t.val / 8 % 2) + q.val; rw [e1]; omega

end Cert.LoraKernel

end
-- ==== Proof.Accum.lean ====
/-
  The accumulation over the contraction tiles.

  Fix a row a of the activations x' and a row o of the folded weight W' (both as the region finds them), and write
  term(n) = x'(a, n) · W'(o, n) for the product at contraction position n, tile(s) = Σ_{j < 512} term(512 · s + j) for
  the sum over tile s, and part(s) = tile(0) + … + tile(s − 1). At grid point t = 16 · i + 8 · j + s the body adds, at
  entry (p, q) of the accumulator, the inner product of row p of the activation block with row q of the weight block,
  which is tile(s) for a = 1024 · i + p and o = 2048 · j + q. The accumulator starts from zero at s = 0, so after the
  point it holds part(s + 1): by induction on the point, the point before (same i and j, tile s − 1) having left part(s).
  Only associativity of the addition and 0 + y = y are used, so this holds on all of the extended reals.

  At the last tile (s = 7) the output block is stored: the accumulator plus the bias entry of column o.
-/
import proofs.«122669_j13726715478236_2_alg».proof.Proof.Payload
import proofs.«122669_j13726715478236_2_alg».proof.Proof.Blocks

set_option maxRecDepth 16384

noncomputable section

open scoped BigOperators
open Idealize.ShloMosaic Idealize.ShloMosaic.TcCoe Idealize.ShloMosaic.ValueIdx Idealize.SL.Sem

namespace Cert.LoraKernel

open Cert.KernelIdeal Cert.KernelIdeal.Gen

variable (m : (ℓ : Loc nD τ sig) → Buf (Elt Ideal) ℓ) (c : Dev nD)

/-- The product at contraction position n of row a of the activations with row o of the folded weight. -/
def term (a o n : ℕ) : EReal := actAt m c a n * weightAt m c o n

/-- The sum over contraction tile s (positions 512 · s … 512 · s + 511). -/
def tileSum (a o s : ℕ) : EReal := ∑ j : Fin 512, term m c a o (512 * s + j.val)

/-- The sum over the first s tiles. -/
def partSum (a o s : ℕ) : EReal := ∑ s' ∈ Finset.range s, tileSum m c a o s'

theorem partSum_succ (a o s : ℕ) : partSum m c a o (s + 1) = partSum m c a o s + tileSum m c a o s :=
  Finset.sum_range_succ _ _

theorem partSum_one (a o : ℕ) : partSum m c a o 1 = tileSum m c a o 0 := by
  rw [partSum_succ]; exact zero_add _

/-- An inner product of a row of an activation block with a row of a weight block is the sum over a tile, once the
    two rows are known to be the tile's stretch of a row of the activations and of a row of the folded weight. -/
theorem inner_eq_tile (x : Vec Ideal S1024x512 .f32) (w : Vec Ideal S2048x512 .bf16) (a o s : ℕ) (p : Fin 1024) (q : Fin 2048)
    (hx : ∀ k : Fin 512, x (ix2 p k) = actAt m c a (512 * s + k.val))
    (hw : ∀ k : Fin 512, w (ix2 q k) = weightAt m c o (512 * s + k.val)) :
    ∑ k : Fin 512, x (ix2 p k) * w (ix2 q k) = tileSum m c a o s :=
  Finset.sum_congr rfl fun k _ => by rw [hx k, hw k]; rfl

/-! ## What a point leaves, case by case -/

section AnyInstance
variable {F : FTy → Type} [FloatOps F] (mF : (ℓ : Loc nD τ sig) → Buf (Elt F) ℓ)

/-- A point of the first tile leaves one step over zeros in the accumulator. -/
theorem acc_first (t : Fin cfg0.N) (h0 : t.val % 8 = 0) (h1 : ¬t.val % 8 = 7) :
    (outsAt0 mF c t.val t.isLt).2 = stepAcc (iblk mF c 0 t) zeroAcc (iblk mF c 1 t) := by
  rw [outsAt0_A mF c t h0 h1]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk mF c 0 t) (iblk mF c 1 t) (iblk mF c 2 t)

/-- A point of a middle tile leaves one step over what the point before left. -/
theorem acc_middle (t : Fin cfg0.N) (h0 : ¬t.val % 8 = 0) (h1 : ¬t.val % 8 = 7) :
    (outsAt0 mF c t.val t.isLt).2 = stepAcc (iblk mF c 0 t) (outsAt0 mF c (t.val - 1) (Nat.lt_of_le_of_lt (Nat.sub_le _ _) t.isLt)).2 (iblk mF c 1 t) := by
  rw [outsAt0_B mF c t h0 h1]
  dsimp only
  exact scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk mF c 0 t) (iblk mF c 1 t) (iblk mF c 2 t) (outsAt0 mF c (t.val - 1) (Nat.lt_of_le_of_lt (Nat.sub_le _ _) t.isLt)).2

/-- A point of the last tile leaves the same in the accumulator … -/
theorem acc_last (t : Fin cfg0.N) (h0 : ¬t.val % 8 = 0) (h1 : t.val % 8 = 7) :
    (outsAt0 mF c t.val t.isLt).2 = stepAcc (iblk mF c 0 t) (outsAt0 mF c (t.val - 1) (Nat.lt_of_le_of_lt (Nat.sub_le _ _) t.isLt)).2 (iblk mF c 1 t) := by
  rw [outsAt0_C mF c t h0 h1]
  dsimp only
  exact scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk mF c 0 t) (iblk mF c 1 t) (iblk mF c 2 t) (outsAt0 mF c (t.val - 1) (Nat.lt_of_le_of_lt (Nat.sub_le _ _) t.isLt)).2

/-- … and, in the output block, that accumulator plus the bias block. -/
theorem out_last (t : Fin cfg0.N) (h0 : ¬t.val % 8 = 0) (h1 : t.val % 8 = 7) :
    (outsAt0 mF c t.val t.isLt).1 = withBias (stepAcc (iblk mF c 0 t) (outsAt0 mF c (t.val - 1) (Nat.lt_of_le_of_lt (Nat.sub_le _ _) t.isLt)).2 (iblk mF c 1 t)) (iblk mF c 2 t) := by
  rw [outsAt0_C mF c t h0 h1]
  dsimp only
  exact output_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk mF c 0 t) (iblk mF c 1 t) (iblk mF c 2 t) (outsAt0 mF c (t.val - 1) (Nat.lt_of_le_of_lt (Nat.sub_le _ _) t.isLt)).2

end AnyInstance

/-! ## The invariant -/

/-- AFTER POINT n the accumulator's entry (p, q) is the sum over the first n % 8 + 1 tiles, for the row
    1024 · (n / 16) + p of the activations and the row 2048 · (n / 8 % 2) + q of the folded weight. -/
theorem acc_after (n : ℕ) : ∀ (hn : n < cfg0.N) (p : Fin 1024) (q : Fin 2048),
    ((outsAt0 m c n hn).2 : Vec Ideal S1024x2048 .f32) (ix2 p q)
      = partSum m c (1024 * (n / 16) + p.val) (2048 * (n / 8 % 2) + q.val) (n % 8 + 1) := by
  induction n using Nat.strong_induction_on with
  | _ n ih =>
    intro hn p q
    have hN : n < 128 := lt_of_lt_of_eq hn (show cfg0.N = 128 from N_0)
    by_cases h0 : n % 8 = 0
    · have h1 : ¬n % 8 = 7 := by omega
      have e : (outsAt0 m c n hn).2 = stepAcc (iblk m c 0 ⟨n, hn⟩) zeroAcc (iblk m c 1 ⟨n, hn⟩) := acc_first c m ⟨n, hn⟩ h0 h1
      refine (congrFun e (ix2 p q)).trans ?_
      refine (stepAcc_apply (iblk m c 0 ⟨n, hn⟩) zeroAcc (iblk m c 1 ⟨n, hn⟩) p q).trans ?_
      rw [zeroAcc_apply, zero_add]
      refine (inner_eq_tile m c (iblk m c 0 ⟨n, hn⟩) (iblk m c 1 ⟨n, hn⟩) _ _ _ p q
        (fun k => actBlock_apply m c ⟨n, hn⟩ p k) (fun k => weightBlock_apply m c ⟨n, hn⟩ q k)).trans ?_
      show tileSum m c (1024 * (n / 16) + p.val) (2048 * (n / 8 % 2) + q.val) (n % 8) = _
      rw [h0]
      exact (partSum_one m c _ _).symm
    · have hpos : n - 1 < n := by omega
      have hprev : n - 1 < cfg0.N := Nat.lt_of_le_of_lt (Nat.sub_le _ _) hn
      have e : (outsAt0 m c n hn).2 = stepAcc (iblk m c 0 ⟨n, hn⟩) (outsAt0 m c (n - 1) hprev).2 (iblk m c 1 ⟨n, hn⟩) := by
        by_cases h1 : n % 8 = 7
        · exact acc_last c m ⟨n, hn⟩ h0 h1
        · exact acc_middle c m ⟨n, hn⟩ h0 h1
      refine (congrFun e (ix2 p q)).trans ?_
      refine (stepAcc_apply (iblk m c 0 ⟨n, hn⟩) (outsAt0 m c (n - 1) hprev).2 (iblk m c 1 ⟨n, hn⟩) p q).trans ?_
      rw [ih (n - 1) hpos hprev p q]
      refine (congrArg (_ + ·) (inner_eq_tile m c (iblk m c 0 ⟨n, hn⟩) (iblk m c 1 ⟨n, hn⟩) _ _ _ p q
        (fun k => actBlock_apply m c ⟨n, hn⟩ p k) (fun k => weightBlock_apply m c ⟨n, hn⟩ q k))).trans ?_
      show partSum m c (1024 * ((n - 1) / 16) + p.val) (2048 * ((n - 1) / 8 % 2) + q.val) ((n - 1) % 8 + 1)
          + tileSum m c (1024 * (n / 16) + p.val) (2048 * (n / 8 % 2) + q.val) (n % 8) = _
      have e1 : (n - 1) / 16 = n / 16 := by omega
      have e2 : (n - 1) / 8 % 2 = n / 8 % 2 := by omega
      have e3 : (n - 1) % 8 + 1 = n % 8 := by omega
      rw [e1, e2, e3]
      exact (partSum_succ m c _ _ _).symm

/-- AT A POINT OF THE LAST TILE the output block's entry (p, q) is the sum over all eight tiles plus the bias entry of
    the column. -/
theorem out_at_last (t : Fin cfg0.N) (h1 : t.val % 8 = 7) (p : Fin 1024) (q : Fin 2048) :
    ((outsAt0 m c t.val t.isLt).1 : Vec Ideal S1024x2048 .f32) (ix2 p q)
      = partSum m c (1024 * (t.val / 16) + p.val) (2048 * (t.val / 8 % 2) + q.val) 8
        + biasAt m c (2048 * (t.val / 8 % 2) + q.val) := by
  have h0 : ¬t.val % 8 = 0 := by omega
  have e : (outsAt0 m c t.val t.isLt).1 = withBias (outsAt0 m c t.val t.isLt).2 (iblk m c 2 t) :=
    (out_last c m t h0 h1).trans (congrArg (withBias · (iblk m c 2 t)) (acc_last c m t h0 h1).symm)
  refine (congrFun e (ix2 p q)).trans ?_
  refine (withBias_apply (outsAt0 m c t.val t.isLt).2 (iblk m c 2 t) p q).trans ?_
  rw [acc_after m c t.val t.isLt p q, h1]
  exact congrArg (_ + ·) (biasBlock_apply m c t q)

end Cert.LoraKernel

end
-- ==== Proof.OutArray.lean ====
/-
  The output array after the region.

  The output window's block at point t is rows 1024 · (t / 16) … and columns 2048 · (t / 8 % 2) … of the [8192, 4096]
  array, and it is written back exactly at the points of the last contraction tile (t % 8 = 7). What such a point
  writes is, entry by entry, the sum over all eight tiles plus the bias: the restriction to the block of ONE function
  of the whole array's index,

      out(a, o) = Σ_{s < 8} Σ_{j < 512} x'(a, 512·s + j) · W'(o, 512·s + j)  +  b'(0, o).

  Every index (a, o) lies in the block of the point 16 · (a / 1024) + 8 · (o / 2048) + 7, so the sixteen written blocks
  cover the array and the array ends holding out.
-/
import proofs.«122669_j13726715478236_2_alg».proof.Proof.Accum

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.LoraKernel

open Cert.KernelIdeal Cert.KernelIdeal.Gen

variable (m : (ℓ : Loc nD τ sig) → Buf (Elt Ideal) ℓ) (c : Dev nD)

/-- The output array [8192, 4096] after the region, as one function of its index. -/
def outArray : S8192x4096.Idx → EReal := fun i => partSum m c (i 0).val (i 1).val 8 + biasAt m c (i 1).val

/-- An index of the array is in point t's output block iff each coordinate is in the block's range on its axis. -/
theorem mem_outBlock (t : Fin cfg0.N) (i : S8192x4096.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v7).slice (win0_3.rect t)).set ↔ _
  rw [View.set_slice_whole, Rect.mem_set_unit]
  exact Iff.rfl

/-- WHAT A POINT OF THE LAST TILE WRITES BACK is its block of the one function. -/
theorem flushed_eq (t : Fin cfg0.N) (hf : (cfg0.win 3).flush t = true) :
    (dats m 0 c).flushed 3 t = ((cfg0.win 3).blk t).view.read (Elt Ideal) (outArray m c) := by
  have h7 : t.val % 8 = 7 := (flush0_3 t).mp hf
  have hN := point_lt t
  obtain ⟨-, -, -, -, -, -, e0, e1⟩ := block_indices t
  show (cfg0.win 3).cut (grid0.coords t) ((dats m 0 c).after 3 t) = _
  rw [after0_3]
  funext j
  obtain ⟨p, q, rfl⟩ : ∃ (p : Fin 1024) (q : Fin 2048), j = ix2 p q := ⟨j 0, j 1, eq_ix2 j⟩
  rw [View.read_apply]
  show ((outsAt0 m c t.val t.isLt).1 : Vec Ideal S1024x2048 .f32) (ix2 p q)
    = outArray m c (((cfg0.win 3).blk t).view.emb (ix2 p q))
  rw [out_at_last m c t h7 p q]
  have r0 : ((((cfg0.win 3).blk t).view.emb (ix2 p q)) 0).val = 1024 * (t.val / 16) + p.val := by
    show win0_3.index t (0 : Fin 2) * 1024 + 1 * p.val = _
    rw [e0]; omega
  have r1 : ((((cfg0.win 3).blk t).view.emb (ix2 p q)) 1).val = 2048 * (t.val / 8 % 2) + q.val := by
    show win0_3.index t (1 : Fin 2) * 2048 + 1 * q.val = _
    rw [e1]; omega
  unfold outArray
  rw [r0, r1]

/-- THE COVER: every index of the array is in the block of a point of the last tile. -/
theorem out_cover (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hlt : 16 * ((i 0).val / 1024) + 8 * ((i 1).val / 2048) + 7 < cfg0.N := by
    rw [show cfg0.N = 128 from N_0]; omega
  obtain ⟨-, -, -, -, -, -, e0, e1⟩ := block_indices ⟨_, hlt⟩
  have e0' : win0_3.index ⟨_, hlt⟩ (0 : Fin 2) = (16 * ((i 0).val / 1024) + 8 * ((i 1).val / 2048) + 7) / 16 := e0
  have e1' : win0_3.index ⟨_, hlt⟩ (1 : Fin 2) = (16 * ((i 0).val / 1024) + 8 * ((i 1).val / 2048) + 7) / 8 % 2 := e1
  refine ⟨⟨_, hlt⟩, (flush0_3 _).mpr (by show (16 * ((i 0).val / 1024) + 8 * ((i 1).val / 2048) + 7) % 8 = 7; omega), ?_⟩
  rw [mem_outBlock]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0']; omega
  | ⟨1, _⟩ =>
    show win0_3.index ⟨_, hlt⟩ (1 : Fin 2) * 2048 ≤ (i 1).val ∧ (i 1).val < win0_3.index ⟨_, hlt⟩ (1 : Fin 2) * 2048 + 2048
    rw [e1']; omega

/-- So the array ends holding the one function. -/
theorem out_final : (dats m 0 c).arrAt 3 cfg0.N = outArray m c :=
  (dats m 0 c).arrAt_eq_of_cover 3 (outArray m c) (flushed_eq m c) (out_cover)

end Cert.LoraKernel

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.HostPrefix.lean ====
/-
  The three arrays the region's windows read, as functions of the program's arguments, over the extended reals.

  Before the region the program computes, from the activations x : [4, 2048, 4096], the base weight W : [4096, 4096],
  the bias : [4096] and the low-rank factors A : [16, 4096], B : [4096, 16]:

      x'(a, k)  =  x(a / 2048, a % 2048, k)                 the activations with their two leading axes merged
      W'(o, k)  =  W(o, k) + 2 · Σ_r B(o, r) · A(r, k)      the folded weight (its change of format is the identity here)
      b'(0, o)  =  bias(o)                                  the bias as a one-row matrix

  A merge of axes keeps the row-major position, so row a = b · 2048 + s of x' is row (b, s) of x; the product with the
  constant 2 is read entry by entry, the constant being broadcast from a scalar; and the host's matrix product B · A at
  (o, k) is the sum over the 16 contracted coordinates.
-/
import proofs.«122669_j13726715478236_2_alg».proof.Proof.Gen.KernelIdeal.Frame
import proofs.«122669_j13726715478236_2_alg».proof.Proof.Spec
import proofs.«122669_j13726715478236_2_alg».proof.Proof.LibPlainDot
import Idealize.ShloMosaic.Lib.Pipeline.Value
import Idealize.ShloMosaic.Lib.ValueLayout
import Idealize.ShloMosaic.Lib.StableHlo.Run

set_option maxRecDepth 16384

noncomputable section

open scoped BigOperators

namespace Cert.LoraHost

open Idealize.ShloMosaic Idealize.ShloMosaic.TcCoe Idealize.ShloMosaic.ValueIdx Idealize.SL.Sem Cert.KernelIdeal Cert.KernelIdeal.Gen Cert.LoraSpec

variable (m : (ℓ : Loc nD τ sig) → Buf (Elt Ideal) ℓ) (c : Dev nD)

/-- The bias row is the shape cast of the bias. -/
theorem V_v6_term :
    (V m c main_v6 : S1x4096.Idx → EReal)
      = shapeCast S1x4096 (m ((c : Thread nD τ).loc main_arg2) : S4096.Idx → EReal) Facts₀.shapeCasts_S4096_S1x4096 := by
  show StableHlo.after hostOps0 (fun b => m (c, b)) (Proc.devRef .tc main_v6) = _
  after_results
  rfl

/-- The flattened activations are the shape cast of the activations. -/
theorem V_v5_term :
    (V m c main_v5 : S8192x4096.Idx → EReal)
      = shapeCast S8192x4096 (m ((c : Thread nD τ).loc main_arg0) : S4x2048x4096.Idx → EReal) Facts₀.shapeCasts_S4x2048x4096_S8192x4096 := by
  show StableHlo.after hostOps0 (fun b => m (c, b)) (Proc.devRef .tc main_v5) = _
  after_results
  rfl

/-- The folded weight as the term of the host operations: W + 2 · (B · A), then the format change. -/
theorem V_v4_term :
    (V m c main_v4 : S4096x4096.Idx → EReal)
      = (truncf .bf16
          (addf (m ((c : Thread nD τ).loc main_arg1) : FVec Ideal S4096x4096 .f32)
            (mulf (broadcastInDim S4096x4096 ![] Facts₀.bcast_S_S4096x4096 (constant (F := Ideal) S_ .f32 0x40000000#32))
              (Host.dotGeneral (F := Ideal) (φ₁ := .f32) (φ₂ := .f32) dot_S4096x16_S16x4096_S4096x4096_1_0_0_1_n_n none
                (m ((c : Thread nD τ).loc main_arg4) : FVec Ideal S4096x16 .f32)
                (m ((c : Thread nD τ).loc main_arg3) : FVec Ideal S16x4096 .f32))))
          Facts₀.bitsLt_bf16_f32 : FVec Ideal S4096x4096 .bf16) := by
  show StableHlo.after hostOps0 (fun b => m (c, b)) (Proc.devRef .tc main_v4) = _
  after_results

/-- the activations as the region finds them: row a of the [8192, 4096] array is row (a / 2048, a % 2048) of x -/
theorem V_v5_apply (a : Fin 8192) (k : Fin 4096) :
    (V m c main_v5 : S8192x4096.Idx → EReal) (ix2 a k)
      = (m ((c : Thread nD τ).loc main_arg0) : S4x2048x4096.Idx → EReal)
          (ix3 (⟨a.val / 2048, by omega⟩ : Fin 4) (⟨a.val % 2048, Nat.mod_lt _ (by norm_num)⟩ : Fin 2048) k) := by
  rw [V_v5_term]
  refine shapeCast_apply (s := S4x2048x4096) (t := S8192x4096) _ _ _ _ ?_
  rw [Shape.rowMajor_val_two, Shape.rowMajor_val_three]
  show (a.val / 2048 * 2048 + a.val % 2048) * 4096 + k.val = a.val * 4096 + k.val
  have := Nat.div_add_mod a.val 2048
  omega

/-- the bias as a row -/
theorem V_v6_apply (o : Fin 4096) :
    (V m c main_v6 : S1x4096.Idx → EReal) (ix2 (0 : Fin 1) o)
      = (m ((c : Thread nD τ).loc main_arg2) : S4096.Idx → EReal) (ix1 o) := by
  rw [V_v6_term]
  refine shapeCast_apply (s := S4096) (t := S1x4096) _ _ _ _ ?_
  rw [Shape.rowMajor_val_two, Shape.rowMajor_val_one]
  show o.val = 0 * 4096 + o.val
  omega

/-- the folded weight as the region finds it -/
theorem V_v4_apply (o k : Fin 4096) :
    (V m c main_v4 : S4096x4096.Idx → EReal) (ix2 o k)
      = wfold (Ideal.ofBits .f32 0x40000000#32) (m ((c : Thread nD τ).loc main_arg1)) (m ((c : Thread nD τ).loc main_arg3))
          (m ((c : Thread nD τ).loc main_arg4)) o k := by
  rw [V_v4_term]
  rw [truncf_apply, addf_apply, mulf_apply]
  rw [broadcastInDim_apply _ Facts₀.bcast_S_S4096x4096 _ (ix2 o k) ix0 (fun a => a.elim0), constant_apply]
  simp only [Host.dotGeneral]
  rw [Cert.PlainDot.dotGeneral_apply _ rfl rfl rfl rfl rfl rfl]
  rfl

end Cert.LoraHost

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.KernelValue.lean ====
/-
  The kernel program's result as a function of its five arguments: Gfold.

  After the region the [8192, 4096] output array holds, at (a, o), the sum over the eight contraction tiles of
  x'(a, ·) · W'(o, ·) plus b'(0, o). Summing tile by tile is summing over the whole contraction axis (512 · s + j runs
  through 0 … 4095 once), and the three arrays the region found are the reshaped activations, the folded weight and the
  bias row, so the entry is Σ_k x(a / 2048, a % 2048, k) · (W(o, k) + 2 · D(o, k)) + bias(o). The reshape after the
  region splits the row a = 2048 · b + s back into (b, s). That is the specification's Gfold at (b, s, o).

  Nothing here needs the entries to be finite: only the order of a finite sum changes.
-/
import proofs.«122669_j13726715478236_2_alg».proof.Proof.OutArray
import proofs.«122669_j13726715478236_2_alg».proof.Proof.HostPrefix
import proofs.«122669_j13726715478236_2_alg».proof.Proof.LibTileSum
import proofs.«122669_j13726715478236_2_alg».proof.Proof.Spec
import Idealize.ShloMosaic.Lib.StableHlo.Run
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.LoraKernel

open Cert.KernelIdeal Cert.KernelIdeal.Gen Cert.LoraSpec Cert.LoraHost

variable (m : (ℓ : Loc nD τ sig) → Buf (Elt Ideal) ℓ) (c : Dev nD)

/-- The scale both programs spell: the single-precision literal 2.0. -/
abbrev scale : EReal := Ideal.ofBits .f32 0x40000000#32

/-- Row 2048 · b + s of the activations the region finds is row (b, s) of x. -/
theorem act_row (b : Fin 4) (s : Fin 2048) (n : Fin 4096) :
    actAt m c (2048 * b.val + s.val) n.val = ((m ((c : Thread nD τ).loc main_arg0)) : S4x2048x4096.Idx → EReal) (ix3 b s n) := by
  have hb := b.isLt
  have hs := s.isLt
  unfold actAt
  rw [dif_pos ⟨by omega, n.isLt⟩]
  refine (V_v5_apply m c ⟨2048 * b.val + s.val, by omega⟩ ⟨n.val, n.isLt⟩).trans (congrArg _ (funext fun a => ?_))
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- The folded weight the region finds is W + 2 · D. -/
theorem weight_row (o n : Fin 4096) :
    weightAt m c o.val n.val = wfold scale (m ((c : Thread nD τ).loc main_arg1)) (m ((c : Thread nD τ).loc main_arg3)) (m ((c : Thread nD τ).loc main_arg4)) o n := by
  unfold weightAt
  rw [dif_pos ⟨o.isLt, n.isLt⟩]
  exact V_v4_apply m c ⟨o.val, o.isLt⟩ ⟨n.val, n.isLt⟩

/-- The bias row the region finds is the bias. -/
theorem bias_row (o : Fin 4096) :
    biasAt m c o.val = ((m ((c : Thread nD τ).loc main_arg2)) : S4096.Idx → EReal) (ix1 o) := by
  unfold biasAt
  rw [dif_pos o.isLt]
  exact V_v6_apply m c ⟨o.val, o.isLt⟩

/-- Gfold at the entry (b, s, o): the coordinates of a triple compute. -/
theorem Gfold_apply (t : EReal) (x : SX.Idx → EReal) (W : SW.Idx → EReal) (bias : Sb.Idx → EReal) (A : SA.Idx → EReal)
    (B : SB.Idx → EReal) (b : Fin 4) (s : Fin 2048) (o : Fin 4096) :
    Gfold t x W bias A B (ix3 b s o) = (∑ k : Fin 4096, x (ix3 b s k) * wfold t W A B o k) + bias (ix1 o) := rfl

/-- THE OUTPUT ARRAY, RESHAPED, IS Gfold OF THE ARGUMENTS. -/
theorem reshaped_eq :
    shapeCast S4x2048x4096 (outArray m c) Facts₀.shapeCasts_S8192x4096_S4x2048x4096
      = Gfold scale (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [shapeCast_apply (s := S8192x4096) (t := S4x2048x4096) (outArray m c) Facts₀.shapeCasts_S8192x4096_S4x2048x4096
    (ix3 b s o) (ix2 (⟨2048 * b.val + s.val, by omega⟩ : Fin 8192) o) (by
      rw [Shape.rowMajor_val_two, Shape.rowMajor_val_three]
      show (2048 * b.val + s.val) * 4096 + o.val = (b.val * 2048 + s.val) * 4096 + o.val
      omega)]
  show partSum m c (2048 * b.val + s.val) o.val 8 + biasAt m c o.val = _
  rw [Gfold_apply]
  rw [bias_row]
  refine congrArg (· + _) ?_
  unfold partSum tileSum
  rw [Cert.TileSum.sum_tiles 8 512 (term m c (2048 * b.val + s.val) o.val)]
  show ∑ r : Fin 4096, term m c (2048 * b.val + s.val) o.val r.val = _
  exact Finset.sum_congr rfl fun k _ => by unfold term; rw [act_row, weight_row]

/-- The result buffer after the reshape that follows the region is the reshaped output array. -/
theorem tail_eq :
    (Pipeline.afterTail₀ cfgs (dats m) 0 (V0 m) [hostOps1] c main_v8 : S4x2048x4096.Idx → EReal)
      = shapeCast S4x2048x4096 (outArray m c) Facts₀.shapeCasts_S8192x4096_S4x2048x4096 := by
  unfold Pipeline.afterTail₀
  show StableHlo.after hostOps1 _ (Proc.devRef .tc main_v8) = _
  after_results
  exact congrArg (fun v => shapeCast S4x2048x4096 v Facts₀.shapeCasts_S8192x4096_S4x2048x4096)
    ((Pipeline.withArrays_arr spec0 launch0.win.arr_inj c _ _ 3).trans (out_final m c))

/-- THE KERNEL PROGRAM'S RUN: every weakly fair execution ends with the result at Gfold of the arguments and the
    arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = Gfold scale (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v8 (Pipeline.mem_restRefs_of main_v8 (by decide) (by decide))).trans ((tail_eq m c).trans (reshaped_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.LoraKernel

end
-- ==== Proof.lean ====
/-
  A linear layer with a low-rank adapter: y = x · Wᵀ + bias + 2 · x · (B · A)ᵀ, for x : [4, 2048, 4096], W : [4096, 4096],
  bias : [4096], A : [16, 4096], B : [4096, 16].

  The reference computes the two products separately: (Σ_i x(b,s,i) · W(o,i) + bias(o)) + (Σ_i x(b,s,i) · D(o,i)) · 2 with
  D = B · A (the specification's G). The kernel first folds the adapter into the weight, W' = W + 2 · D, and then computes
  ONE product Σ_i x(b,s,i) · W'(o,i) + bias(o) on an 8 × 2 × 8 grid: for each block of 1024 rows and 2048 output features
  it accumulates the product over eight contraction tiles of width 512 in a scratch buffer (zeroed at the first tile), and
  at the last tile adds the bias and writes the block out (the specification's Gfold).

  Over the extended reals the kernel's result is Gfold whatever the inputs: summing tile by tile only reorders a finite sum.
  Gfold and G agree when every input entry is a real number: x · (w + 2 · d) = x · w + (x · d) · 2 term by term, the finite
  sum splits, and the bias moves across. The precondition (every input finite) gives exactly that. The changes of float
  format in the kernel are the identity at the ideal instance, and the scale 2.0 is the same literal in both programs.

  The three frame claims are the generated frames (the reference's is its generated run with the result dropped); the
  idealization rewrote nothing, so the preservation claim is trivial.
-/
import proofs.«122669_j13726715478236_2_alg».proof.Defs
import proofs.«122669_j13726715478236_2_alg».proof.Proof.Gen.Kernel
import proofs.«122669_j13726715478236_2_alg».proof.Proof.Gen.Kernel.Skeleton
import proofs.«122669_j13726715478236_2_alg».proof.Proof.Gen.Kernel.Launch
import proofs.«122669_j13726715478236_2_alg».proof.Proof.Gen.Kernel.Points
import proofs.«122669_j13726715478236_2_alg».proof.Proof.Gen.Kernel.Frame
import proofs.«122669_j13726715478236_2_alg».proof.Proof.Gen.KernelIdeal
import proofs.«122669_j13726715478236_2_alg».proof.Proof.Gen.KernelIdeal.Skeleton
import proofs.«122669_j13726715478236_2_alg».proof.Proof.Gen.KernelIdeal.Launch
import proofs.«122669_j13726715478236_2_alg».proof.Proof.Gen.KernelIdeal.Points
import proofs.«122669_j13726715478236_2_alg».proof.Proof.Gen.KernelIdeal.Frame
import proofs.«122669_j13726715478236_2_alg».proof.Proof.Gen.ReferenceIdeal
import proofs.«122669_j13726715478236_2_alg».proof.Proof.Gen.Pre_finite_inputs
import proofs.«122669_j13726715478236_2_alg».proof.Proof.Gen.ReferenceIdeal.Run
import proofs.«122669_j13726715478236_2_alg».proof.Proof.Gen.ReferenceIdeal.Read
import proofs.«122669_j13726715478236_2_alg».proof.Proof.Spec
import proofs.«122669_j13726715478236_2_alg».proof.Proof.FoldLaw
import proofs.«122669_j13726715478236_2_alg».proof.Proof.Finite
import proofs.«122669_j13726715478236_2_alg».proof.Proof.RefIsSpec
import proofs.«122669_j13726715478236_2_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the two-product form G of the arguments: the kernel with Gfold, which is G on finite inputs;
    the reference with G itself. -/
theorem algebraic : Cert.algebraic_KernelIdeal_ReferenceIdeal := by
  intro m ρ m' ρ' hpre hagree
  refine ⟨fun c => Cert.LoraSpec.G Cert.LoraKernel.scale (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.LoraKernel.run m ρ)
    obtain ⟨h0, h1, h2, h3, h4⟩ := Cert.LoraFinite.real_of_pre _ _ _ _ _ (hpre c)
    exact Cert.LoraSpec.fold_eq _ Cert.LoraSpec.two_isReal _ _ _ _ _ h0 h1 h2 h3 h4
  · refine (θ_run Cert.ReferenceIdeal.defs _ _).mono (fun r h c => ⟨?_, (h c).2⟩)
      (Cert.ReferenceIdeal.Value.run (F := Ideal) m' ρ')
    rw [(h c).1, Cert.ReferenceIdeal.Read.val_main_v8_eq, Cert.LoraRef.ref_eq, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
